-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S4x2048 : Shape := ⟨2, ![4, 2048]⟩
abbrev S1024 : Shape := ⟨1, ![1024]⟩
abbrev S1024x4096 : Shape := ⟨2, ![1024, 4096]⟩
abbrev S4096 : Shape := ⟨1, ![4096]⟩
abbrev S4096x1024 : Shape := ⟨2, ![4096, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4x2048 : S_.BroadcastsInDim S4x2048 (![] : Fin 0 → Fin S4x2048.rank)
  reducesTo_S4x2048_S_d0_1 : S4x2048.ReducesTo [0, 1] S_
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S4096x1024 : S_.BroadcastsInDim S4096x1024 (![] : Fin 0 → Fin S4096x1024.rank)
  reducesTo_S4096x1024_S_d0_1 : S4096x1024.ReducesTo [0, 1] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024x4096 .f32) (main_arg5 : FVec F S4096 .f32) (main_arg6 : FVec F S4096x1024 .f32) (main_arg7 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x4096 .f32 := Host.absf main_arg4
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096x1024 .f32 := Host.absf main_arg6
  let main_cst_10 : FVec F S_ .f32 := constant S_ .f32 0x7F800000#32
  let main_v30 : FVec F S4096x1024 .f32 := broadcastInDim S4096x1024 ![] bcast_S_S4096x1024 main_cst_10
  let main_v31 : IVec S4096x1024 1 := cmpf .olt main_v29 main_v30
  let main_c_11 : IVec S_ 1 := constantI S_ 1 1#1
  let main_v32 : IVec S_ 1 := (fun x v => Host.reduce IntOp.andi x v reducesTo_S4096x1024_S_d0_1 h_S_) main_v31 main_c_11
  let main_v33 : IVec S_ 1 := andi main_v28 main_v32
  fn_part2 (F := F) main_arg7 main_v33

def fn {F : FTy → Type} [FloatOps F] (main_arg0 : FVec F S4x2048x1024 .f32) (main_arg1 : FVec F S4x2048 .f32) (main_arg2 : FVec F S1024 .f32) (main_arg3 : FVec F S1024 .f32) (main_arg4 : FVec F S1024x4096 .f32) (main_arg5 : FVec F S4096 .f32) (main_arg6 : FVec F S4096x1024 .f32) (main_arg7 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048 .f32 := Host.absf main_arg1
  let main_cst_0 : FVec F S_ .f32 := constant S_ .f32 0x7F800000#32
  let main_v5 : FVec F S4x2048 .f32 := broadcastInDim S4x2048 ![] bcast_S_S4x2048 main_cst_0
  let main_v6 : IVec S4x2048 1 := cmpf .olt main_v4 main_v5
  let main_c_1 : IVec S_ 1 := constantI S_ 1 1#1
  let main_v7 : IVec S_ 1 := (fun x v => Host.reduce IntOp.andi x v reducesTo_S4x2048_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S4x2048x1024 : Shape := ⟨3, ![4, 2048, 1024]⟩
abbrev S4x2048 : Shape := ⟨2, ![4, 2048]⟩
abbrev S1024 : Shape := ⟨1, ![1024]⟩
abbrev S1024x4096 : Shape := ⟨2, ![1024, 4096]⟩
abbrev S4096 : Shape := ⟨1, ![4096]⟩
abbrev S4096x1024 : Shape := ⟨2, ![4096, 1024]⟩
abbrev S8192x1024 : Shape := ⟨2, ![8192, 1024]⟩
abbrev S1x1024 : Shape := ⟨2, ![1, 1024]⟩
abbrev S1x4096 : Shape := ⟨2, ![1, 4096]⟩
abbrev S512x1024 : Shape := ⟨2, ![512, 1024]⟩
abbrev S512 : Shape := ⟨1, ![512]⟩
abbrev S512x1 : Shape := ⟨2, ![512, 1]⟩
abbrev S512x4096 : Shape := ⟨2, ![512, 4096]⟩

abbrev nBuf : Space → Nat
  | .hbm => 17
  | .vmem => 10
  | .smem => 0
  | _ => 0

abbrev bufTy : (tb : Table) → Fin (tcTables nBuf tb) → BufTy
  | .hbm, ⟨0, _⟩ => ⟨S4x2048x1024, .f32⟩
  | .hbm, ⟨1, _⟩ => ⟨S4x2048, .f32⟩
  | .hbm, ⟨2, _⟩ => ⟨S1024, .f32⟩
  | .hbm, ⟨3, _⟩ => ⟨S1024, .f32⟩
  | .hbm, ⟨4, _⟩ => ⟨S1024x4096, .f32⟩
  | .hbm, ⟨5, _⟩ => ⟨S4096, .f32⟩
  | .hbm, ⟨6, _⟩ => ⟨S4096x1024, .f32⟩
  | .hbm, ⟨7, _⟩ => ⟨S1024, .f32⟩
  | .hbm, ⟨8, _⟩ => ⟨S8192x1024, .f32⟩
  | .hbm, ⟨9, _⟩ => ⟨S1x1024, .f32⟩
  | .hbm, ⟨10, _⟩ => ⟨S1x1024, .f32⟩
  | .hbm, ⟨11, _⟩ => ⟨S1x4096, .f32⟩
  | .hbm, ⟨12, _⟩ => ⟨S1x1024, .f32⟩
  | .hbm, ⟨13, _⟩ => ⟨S1024x4096, .bf16⟩
  | .hbm, ⟨14, _⟩ => ⟨S4096x1024, .bf16⟩
  | .hbm, ⟨15, _⟩ => ⟨S8192x1024, .f32⟩
  | .hbm, ⟨16, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x4096, .bf16⟩
  | .local _ .vmem, ⟨5, _⟩ => ⟨S1x4096, .f32⟩
  | .local _ .vmem, ⟨6, _⟩ => ⟨S4096x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S4x2048x1024_S8192x1024 : S4x2048x1024.ShapeCasts S8192x1024
  shapeCasts_S1024_S1x1024 : S1024.ShapeCasts S1x1024
  shapeCasts_S4096_S1x4096 : S4096.ShapeCasts S1x4096
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S512x1024_S512 : S512x1024.Reduces [1] S512
  shapeCasts_S512_S512x1 : S512.ShapeCasts S512x1
  broadcasts_S512x1_S512x1024 : S512x1.Broadcasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  shapeCasts_S8192x1024_S4x2048x1024 : S8192x1024.ShapeCasts S4x2048x1024
  dot_S512x1024_S1024x4096_S512x4096_1_0_0_1_n_n_wf : DotDims.WF S512x1024 S1024x4096 S512x4096 [1] [0] [0] [1] [] []
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x1024.size a ≤ S4096x1024.size a
  hwx0_5 : ∀ i : grid0.Coords, EltTy.bits .bf16 = 32 ∨ (Rect.block (s := S4096x1024) S4096x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S8192x1024.size a
  hwx0_7 : ∀ i : grid0.Coords, EltTy.bits .f32 = 32 ∨ (Rect.block (s := S8192x1024) S512x1024.size (cc0_transform_7 i) (hinb0_7 i)).WholeWords (EltTy.packing .f32)

variable [Facts₀]

def dot_S512x1024_S1024x4096_S512x4096_1_0_0_1_n_n : DotDims S512x1024 S1024x4096 S512x4096 where
  lhsContracting := [1]
  rhsContracting := [0]
  lhsNonContracting := [0]
  rhsNonContracting := [1]
  lhsBatch := []
  rhsBatch := []
  wf := dot_S512x1024_S1024x4096_S512x4096_1_0_0_1_n_n_wf
def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S4096x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S4x2048 : Shape := ⟨2, ![4, 2048]⟩
abbrev S1024 : Shape := ⟨1, ![1024]⟩
abbrev S1024x4096 : Shape := ⟨2, ![1024, 4096]⟩
abbrev S4096 : Shape := ⟨1, ![4096]⟩
abbrev S4096x1024 : Shape := ⟨2, ![4096, 1024]⟩
abbrev S_ : Shape := ⟨0, ![]⟩
abbrev S4x2048x1 : Shape := ⟨3, ![4, 2048, 1]⟩
abbrev S1x1x1024 : Shape := ⟨3, ![1, 1, 1024]⟩
abbrev S4x2048x4096 : Shape := ⟨3, ![4, 2048, 4096]⟩
abbrev S1x1x4096 : Shape := ⟨3, ![1, 1, 4096]⟩

abbrev nBuf : Space → Nat
  | .hbm => 48
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048, .f32⟩
  | .hbm, ⟨2, _⟩ => ⟨S1024, .f32⟩
  | .hbm, ⟨3, _⟩ => ⟨S1024, .f32⟩
  | .hbm, ⟨4, _⟩ => ⟨S1024x4096, .f32⟩
  | .hbm, ⟨5, _⟩ => ⟨S4096, .f32⟩
  | .hbm, ⟨6, _⟩ => ⟨S4096x1024, .f32⟩
  | .hbm, ⟨7, _⟩ => ⟨S1024, .f32⟩
  | .hbm, ⟨8, _⟩ => ⟨S_, .f32⟩
  | .hbm, ⟨9, _⟩ => ⟨S4x2048, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1024, .f32⟩
  | .hbm, ⟨15, _⟩ => ⟨S4x2048x1024, .f32⟩
  | .hbm, ⟨16, _⟩ => ⟨S4x2048x1024, .f32⟩
  | .hbm, ⟨17, _⟩ => ⟨S_, .f32⟩
  | .hbm, ⟨18, _⟩ => ⟨S4x2048, .f32⟩
  | .hbm, ⟨19, _⟩ => ⟨S4x2048x1, .f32⟩
  | .hbm, ⟨20, _⟩ => ⟨S_, .f32⟩
  | .hbm, ⟨21, _⟩ => ⟨S4x2048x1, .f32⟩
  | .hbm, ⟨22, _⟩ => ⟨S4x2048x1, .f32⟩
  | .hbm, ⟨23, _⟩ => ⟨S4x2048x1024, .f32⟩
  | .hbm, ⟨24, _⟩ => ⟨S4x2048x1024, .f32⟩
  | .hbm, ⟨25, _⟩ => ⟨S_, .f32⟩
  | .hbm, ⟨26, _⟩ => ⟨S4x2048x1, .f32⟩
  | .hbm, ⟨27, _⟩ => ⟨S4x2048x1, .f32⟩
  | .hbm, ⟨28, _⟩ => ⟨S4x2048x1, .f32⟩
  | .hbm, ⟨29, _⟩ => ⟨S4x2048x1024, .f32⟩
  | .hbm, ⟨30, _⟩ => ⟨S4x2048x1024, .f32⟩
  | .hbm, ⟨31, _⟩ => ⟨S1x1x1024, .f32⟩
  | .hbm, ⟨32, _⟩ => ⟨S4x2048x1024, .f32⟩
  | .hbm, ⟨33, _⟩ => ⟨S4x2048x1024, .f32⟩
  | .hbm, ⟨34, _⟩ => ⟨S1x1x1024, .f32⟩
  | .hbm, ⟨35, _⟩ => ⟨S4x2048x1024, .f32⟩
  | .hbm, ⟨36, _⟩ => ⟨S4x2048x1024, .f32⟩
  | .hbm, ⟨37, _⟩ => ⟨S4x2048x4096, .f32⟩
  | .hbm, ⟨38, _⟩ => ⟨S1x1x4096, .f32⟩
  | .hbm, ⟨39, _⟩ => ⟨S4x2048x4096, .f32⟩
  | .hbm, ⟨40, _⟩ => ⟨S4x2048x4096, .f32⟩
  | .hbm, ⟨41, _⟩ => ⟨S_, .f32⟩
  | .hbm, ⟨42, _⟩ => ⟨S4x2048x4096, .f32⟩
  | .hbm, ⟨43, _⟩ => ⟨S4x2048x4096, .f32⟩
  | .hbm, ⟨44, _⟩ => ⟨S4x2048x1024, .f32⟩
  | .hbm, ⟨45, _⟩ => ⟨S1x1x1024, .f32⟩
  | .hbm, ⟨46, _⟩ => ⟨S4x2048x1024, .f32⟩
  | .hbm, ⟨47, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call0_cst : Ref sig .tc := ⟨.hbm, 41, rfl⟩
abbrev main_call0_v0 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩

abbrev nD : Nat := 1
abbrev τ : Topo := Topo.v7x

variable {F : FTy → Type} [FloatOps F]

class Facts₀ : Prop where
  reducesTo_S4x2048x1024_S4x2048_d2 : S4x2048x1024.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x1024_0_1_2 : S4x2048x1.BroadcastsInDim S4x2048x1024 (![0, 1, 2] : Fin 3 → Fin S4x2048x1024.rank)
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  dot_S4x2048x1024_S1024x4096_S4x2048x4096_2_0_01_1_n_n_wf : DotDims.WF S4x2048x1024 S1024x4096 S4x2048x4096 [2] [0] [0, 1] [1] [] []
  dot_S4x2048x4096_S4096x1024_S4x2048x1024_2_0_01_1_n_n_wf : DotDims.WF S4x2048x4096 S4096x1024 S4x2048x1024 [2] [0] [0, 1] [1] [] []

variable [Facts₀]

def dot_S4x2048x1024_S1024x4096_S4x2048x4096_2_0_01_1_n_n : DotDims S4x2048x1024 S1024x4096 S4x2048x4096 where
  lhsContracting := [2]
  rhsContracting := [0]
  lhsNonContracting := [0, 1]
  rhsNonContracting := [1]
  lhsBatch := []
  rhsBatch := []
  wf := dot_S4x2048x1024_S1024x4096_S4x2048x4096_2_0_01_1_n_n_wf
def dot_S4x2048x4096_S4096x1024_S4x2048x1024_2_0_01_1_n_n : DotDims S4x2048x4096 S4096x1024 S4x2048x1024 where
  lhsContracting := [2]
  rhsContracting := [0]
  lhsNonContracting := [0, 1]
  rhsNonContracting := [1]
  lhsBatch := []
  rhsBatch := []
  wf := dot_S4x2048x4096_S4096x1024_S4x2048x1024_2_0_01_1_n_n_wf

class Facts : Prop extends Facts₀ where

variable [Facts]
-- ==== Proof.Spec.lean ====
/-
  The function both programs compute, on the extended reals.

  A row x of 1024 activations is normalised: its mean is the row's sum divided by 1024, its variance the sum of the
  squared deviations divided by 1024, and each deviation is multiplied by the reciprocal square root of the variance
  plus a small constant, then by a per-column scale, and shifted by a per-column bias. The normalised row goes through
  two dense layers: a product with a 1024 × 4096 matrix plus a bias, clipped below at zero, then a product with a
  4096 × 1024 matrix plus a bias. Each output row depends on its own input row only, so the same row function describes
  the result whether the 8192 rows are laid out as a [4, 2048, 1024] array or as an [8192, 1024] matrix: row
  2048 · b + s of the matrix is row (b, s) of the array.
-/
import Idealize.ShloMosaic.PureOps.Ideal
import Idealize.ShloMosaic.Lib.ValueIdx

noncomputable section

open scoped BigOperators

namespace Cert.Mlp

open Idealize.ShloMosaic Idealize.ShloMosaic.ValueIdx

/-- The row length as both programs spell it: the single-precision word of 1024. -/
def width : EReal := Ideal.ofBits .f32 0x44800000#32
/-- The constant added to the variance: the single-precision word nearest 1e-5, the same word in both programs. -/
def eps : EReal := Ideal.ofBits .f32 0x3727C5AC#32

/-- A row's mean: its sum divided by the row length. -/
def mean (x : Fin 1024 → EReal) : EReal := Ideal.div (∑ k : Fin 1024, x k) width
/-- An entry's deviation from the row's mean. -/
def centred (x : Fin 1024 → EReal) (k : Fin 1024) : EReal := x k - mean x
/-- A row's variance: the sum of the squared deviations divided by the row length. -/
def variance (x : Fin 1024 → EReal) : EReal := Ideal.div (∑ k : Fin 1024, centred x k * centred x k) width
/-- The normalised entry: the deviation times the reciprocal square root of the variance plus eps, scaled and shifted. -/
def normed (x sc bi : Fin 1024 → EReal) (k : Fin 1024) : EReal :=
  centred x k * Ideal.rsqrt (variance x + eps) * sc k + bi k
/-- The hidden layer's entry f: the normalised row against column f of the first matrix, plus a bias, clipped at zero. -/
def hidden (x sc bi : Fin 1024 → EReal) (w1 : Fin 1024 → Fin 4096 → EReal) (b1 : Fin 4096 → EReal) (f : Fin 4096) : EReal :=
  max ((∑ k : Fin 1024, normed x sc bi k * w1 k f) + b1 f) 0
/-- The output row's entry c: the hidden row against column c of the second matrix, plus a bias. -/
def outRow (x sc bi : Fin 1024 → EReal) (w1 : Fin 1024 → Fin 4096 → EReal) (b1 : Fin 4096 → EReal)
    (w2 : Fin 4096 → Fin 1024 → EReal) (b2 : Fin 1024 → EReal) (c : Fin 1024) : EReal :=
  (∑ f : Fin 4096, hidden x sc bi w1 b1 f * w2 f c) + b2 c

/-- The result as an [8192, 1024] matrix, from the activations as a matrix and the six parameter arrays as the
    kernel's windows hold them (the vectors as one-row matrices). -/
def onMatrix (x : (⟨2, ![8192, 1024]⟩ : Shape).Idx → EReal) (sc bi : (⟨2, ![1, 1024]⟩ : Shape).Idx → EReal)
    (w1 : (⟨2, ![1024, 4096]⟩ : Shape).Idx → EReal) (b1 : (⟨2, ![1, 4096]⟩ : Shape).Idx → EReal)
    (w2 : (⟨2, ![4096, 1024]⟩ : Shape).Idx → EReal) (b2 : (⟨2, ![1, 1024]⟩ : Shape).Idx → EReal) :
    (⟨2, ![8192, 1024]⟩ : Shape).Idx → EReal := fun j =>
  outRow (fun k => x (ix2 (j 0) k)) (fun k => sc (ix2 (0 : Fin 1) k)) (fun k => bi (ix2 (0 : Fin 1) k))
    (fun k f => w1 (ix2 k f)) (fun f => b1 (ix2 (0 : Fin 1) f)) (fun f c => w2 (ix2 f c)) (fun c => b2 (ix2 (0 : Fin 1) c)) (j 1)

/-- The result as a [4, 2048, 1024] array of the argument arrays as the programs receive them. -/
def onArray (act : (⟨3, ![4, 2048, 1024]⟩ : Shape).Idx → EReal) (sc bi : (⟨1, ![1024]⟩ : Shape).Idx → EReal)
    (w1 : (⟨2, ![1024, 4096]⟩ : Shape).Idx → EReal) (b1 : (⟨1, ![4096]⟩ : Shape).Idx → EReal)
    (w2 : (⟨2, ![4096, 1024]⟩ : Shape).Idx → EReal) (b2 : (⟨1, ![1024]⟩ : Shape).Idx → EReal) :
    (⟨3, ![4, 2048, 1024]⟩ : Shape).Idx → EReal := fun i =>
  outRow (fun k => act (ix3 (i 0) (i 1) k)) (fun k => sc (ix1 k)) (fun k => bi (ix1 k))
    (fun k f => w1 (ix2 k f)) (fun f => b1 (ix1 f)) (fun f c => w2 (ix2 f c)) (fun c => b2 (ix1 c)) (i 2)

end Cert.Mlp

end
-- ==== Proof.LibLane.lean ====
/- A lane sum read at a row: the float add-reduction of an [a, b] vector over its second axis, from the zero
   accumulator, is at the extended reals the plain sum over the lane of the row's entries. -/
import Idealize.ShloMosaic.PureOps.Ideal.Laws
import Idealize.ShloMosaic.Lib.ValueIdx
import Idealize.ShloMosaic.Lib.ValueLayout
import Idealize.ShloMosaic.Lib.Pipeline.Value

noncomputable section
namespace Cert.LibLane
open Idealize.ShloMosaic Idealize.ShloMosaic.ValueIdx

/-- A lane sum of an [a, b] vector (a float `multi_reduction <add>` over axis 1 from the zero accumulator) read at
    row `r`, at the extended reals: the sum over the lane `j` of the entries `(r, j)`. -/
theorem laneSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ j : Fin b, src (ix2 r j) := by
  refine (Ideal.multiReduction_add_single src 0x00000000#32 h hφ hacc (ix1 r)).trans ?_
  refine Finset.sum_congr rfl fun j _ => congrArg src ?_
  funext d
  match d with
  | ⟨0, _⟩ => rfl
  | ⟨1, _⟩ => rfl

end Cert.LibLane
end
-- ==== Proof.LibIndexRead.lean ====
/-
  Layout operations read at an index written by coordinates, for the shapes a row-wise kernel meets:
  a vector of row values kept as a column ([a] cast to [a, 1]), a column spread over the lanes
  ([a, 1] broadcast to [a, b]), a unit-stride rectangular load of a matrix read at (k, j), and the
  host's spellings of the same moves (broadcast_in_dim of a scalar, of a vector along rows or columns,
  a rectangular slice of a matrix). Each statement reads the operation at `ix2 p q` / `ix1 p` and names the
  operand's index by coordinates, so that it applies to a printed operation by unification.
-/
import Idealize.ShloMosaic.Lib.Pipeline.Value
import Idealize.ShloMosaic.Lib.Pipeline.FrameBody
import Idealize.ShloMosaic.Lib.ValueIdx
import Idealize.ShloMosaic.Lib.ValueLayout

namespace Idealize.ShloMosaic.RowRead

open Idealize.ShloMosaic Idealize.ShloMosaic.ValueIdx

variable {α : Type}

/-- An `[a]` array cast to `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A unit-stride rectangle of a matrix, loaded, reads at `(k, j)` the matrix at the rectangle's corner plus `(k, j)`. -/
theorem ld_unit2_apply {Val : EltTy → Type} {e : EltTy} {A B a b : ℕ} (X : (⟨2, ![A, B]⟩ : Shape).Idx → Val e) (o0 o1 : ℕ)
    (inb : ∀ d, (![o0, o1] : Fin 2 → ℕ) d + (![a, b] : Fin 2 → ℕ) d ≤ (⟨2, ![A, B]⟩ : Shape).size d)
    (k : Fin a) (j : Fin b) :
    View.ld X (Rect.unit (s := ⟨2, ![A, B]⟩) ![o0, o1] ![a, b] inb) (ix2 k j)
      = X (ix2 ⟨o0 + k.val, Nat.lt_of_lt_of_le (Nat.add_lt_add_left k.isLt o0) (inb 0)⟩
            ⟨o1 + j.val, Nat.lt_of_lt_of_le (Nat.add_lt_add_left j.isLt o1) (inb 1)⟩) := by
  show X ((Rect.unit (s := ⟨2, ![A, B]⟩) ![o0, o1] ![a, b] inb).idx (ix2 k j)) = _
  refine congrArg X (funext fun d => Fin.ext ?_)
  match d with
  | ⟨0, _⟩ => show o0 + 1 * k.val = o0 + k.val; rw [Nat.one_mul]
  | ⟨1, _⟩ => show o1 + 1 * j.val = o1 + j.val; rw [Nat.one_mul]

/-! ## The host's spellings

The axis map of a `broadcast_in_dim` is a variable of each statement, with the hypothesis `dims = ![…]`; at an operation whose
axis map is that literal the hypothesis holds by reflexivity. -/

/-- A scalar spread over any shape reads the scalar. -/
theorem broadcastInDim_scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun d => d.elim0

/-- An `[a]` vector placed along the rows of an `[a, 1]` column reads, at `(p, u)`, the vector at `p`. -/
theorem broadcastInDim_a_a1_apply {a : ℕ} (dims : Fin (⟨1, ![a]⟩ : Shape).rank → Fin (⟨2, ![a, 1]⟩ : Shape).rank)
    (h : (⟨1, ![a]⟩ : Shape).BroadcastsInDim ⟨2, ![a, 1]⟩ dims) (hd : dims = ![0])
    (x : (⟨1, ![a]⟩ : Shape).Idx → α) (p : Fin a) (u : Fin 1) :
    broadcastInDim ⟨2, ![a, 1]⟩ dims h x (ix2 p u) = x (ix1 p) := by
  subst hd
  refine broadcastInDim_apply _ h x (ix2 p u) (ix1 p) fun d => ?_
  match d with
  | ⟨0, _⟩ =>
    show p.val = if a = 1 then 0 else p.val
    split
    · have := p.isLt; omega
    · rfl

/-- An `[a, 1]` column spread to `[a, b]` reads, at `(p, c)`, the column's entry of row `p`. -/
theorem broadcastInDim_a1_ab_apply {a b : ℕ} (dims : Fin (⟨2, ![a, 1]⟩ : Shape).rank → Fin (⟨2, ![a, b]⟩ : Shape).rank)
    (h : (⟨2, ![a, 1]⟩ : Shape).BroadcastsInDim ⟨2, ![a, b]⟩ dims) (hd : dims = ![0, 1])
    (x : (⟨2, ![a, 1]⟩ : Shape).Idx → α) (p : Fin a) (c : Fin b) :
    broadcastInDim ⟨2, ![a, b]⟩ dims h x (ix2 p c) = x (ix2 p (0 : Fin 1)) := by
  subst hd
  refine broadcastInDim_apply _ h x (ix2 p c) (ix2 p (0 : Fin 1)) fun d => ?_
  match d with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A `[b]` vector laid as the one row of `[1, b]` reads, at `(u, c)`, the vector at `c`. -/
theorem broadcastInDim_b_1b_apply {b : ℕ} (dims : Fin (⟨1, ![b]⟩ : Shape).rank → Fin (⟨2, ![1, b]⟩ : Shape).rank)
    (h : (⟨1, ![b]⟩ : Shape).BroadcastsInDim ⟨2, ![1, b]⟩ dims) (hd : dims = ![1])
    (x : (⟨1, ![b]⟩ : Shape).Idx → α) (u : Fin 1) (c : Fin b) :
    broadcastInDim ⟨2, ![1, b]⟩ dims h x (ix2 u c) = x (ix1 c) := by
  subst hd
  refine broadcastInDim_apply _ h x (ix2 u c) (ix1 c) fun d => ?_
  match d with
  | ⟨0, _⟩ =>
    show c.val = if b = 1 then 0 else c.val
    split
    · have := c.isLt; omega
    · rfl

/-- A `[1, b]` row spread over `[a, b]` reads, at `(p, c)`, the row at `c`. -/
theorem broadcastInDim_1b_ab_apply {a b : ℕ} (dims : Fin (⟨2, ![1, b]⟩ : Shape).rank → Fin (⟨2, ![a, b]⟩ : Shape).rank)
    (h : (⟨2, ![1, b]⟩ : Shape).BroadcastsInDim ⟨2, ![a, b]⟩ dims) (hd : dims = ![0, 1])
    (x : (⟨2, ![1, b]⟩ : Shape).Idx → α) (p : Fin a) (c : Fin b) :
    broadcastInDim ⟨2, ![a, b]⟩ dims h x (ix2 p c) = x (ix2 (0 : Fin 1) c) := by
  subst hd
  refine broadcastInDim_apply _ h x (ix2 p c) (ix2 (0 : Fin 1) c) fun d => ?_
  match d with
  | ⟨0, _⟩ =>
    show (0 : ℕ) = if (1 : ℕ) = 1 then 0 else p.val
    rw [if_pos rfl]
  | ⟨1, _⟩ =>
    show c.val = if b = 1 then 0 else c.val
    split
    · have := c.isLt; omega
    · rfl

/-- A unit-stride rectangular slice of a matrix reads, at `(k, j)`, the matrix at the offsets plus `(k, j)`. -/
theorem slice2_apply {A B a b : ℕ} (o0 o1 : ℕ) (X : (⟨2, ![A, B]⟩ : Shape).Idx → α)
    (h : (⟨2, ![A, B]⟩ : Shape).Slices ![o0, o1] ⟨2, ![a, b]⟩) (k : Fin a) (j : Fin b)
    (h0 : o0 + k.val < A) (h1 : o1 + j.val < B) :
    extractStridedSlice ⟨2, ![a, b]⟩ ![o0, o1] X h (ix2 k j) = X (ix2 ⟨o0 + k.val, h0⟩ ⟨o1 + j.val, h1⟩) := by
  refine extractStridedSlice_apply ![o0, o1] X h (ix2 k j) _ fun d => ?_
  match d with
  | ⟨0, _⟩ => rfl
  | ⟨1, _⟩ => rfl

end Idealize.ShloMosaic.RowRead
-- ==== Proof.LibPlainDot.lean ====
/-
  A plain matrix product read at an index, at the ideal instance.

  For the dimension numbers "rows × contraction times contraction × columns" (`DotDims.plain M K N`) both the
  vector unit's matmul into a zero accumulator and the host's dot_general are, at output index (a, b), the sum over
  k of l (a, k) · r (k, b) on the extended reals. The sum over the one-axis contraction index is re-indexed by its
  one coordinate.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

theorem lhs0 (M K N : Nat) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl
theorem lhs1 (M K N : Nat) (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q
theorem rhs0 (M K N : Nat) (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q
theorem rhs1 (M K N : Nat) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction sum of a plain product at (a, b), over the coordinate `k : Fin K`. -/
theorem sum_plain (M K N : Nat) {φ₁ φ₂ : FTy} (l : FVec Ideal ⟨2, ![M, K]⟩ φ₁) (r : FVec Ideal ⟨2, ![K, N]⟩ φ₂)
    (a : Fin M) (b : Fin N) :
    ∑ k : (DotDims.plain M K N).contr.Idx, l ((DotDims.plain M K N).lhsIdx (ix2 a b) k) * r ((DotDims.plain M K N).rhsIdx (ix2 a b) k)
      = ∑ k : Fin K, l (ix2 a k) * r (ix2 k b) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 a b) ((contrEquiv1 (DotDims.plain M K N) K rfl rfl).symm k) = ix2 a k :=
    funext fun d => Fin.ext (by
      match d with
      | ⟨0, _⟩ => exact lhs0 M K N _ _
      | ⟨1, _⟩ => exact (lhs1 M K N _ _).trans hk)
  have er : (DotDims.plain M K N).rhsIdx (ix2 a b) ((contrEquiv1 (DotDims.plain M K N) K rfl rfl).symm k) = ix2 k b :=
    funext fun d => Fin.ext (by
      match d with
      | ⟨0, _⟩ => exact (rhs0 M K N _ _).trans hk
      | ⟨1, _⟩ => exact rhs1 M K N _ _)
  rw [el, er]

/-- The vector unit's matmul into the zero accumulator, at (a, b). -/
theorem matmul_plain {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (a : Fin M) (b : Fin N) :
    matmul D prec l r (constant ⟨2, ![M, N]⟩ .f32 0x00000000#32) (ix2 a b) = ∑ k : Fin K, l (ix2 a k) * r (ix2 k b) := by
  subst hD
  exact (Ideal.matmul_constant_zero_apply _ prec l r (ix2 a b)).trans (sum_plain M K N l r a b)

/-- The host's dot_general, at (a, b). -/
theorem dotGeneral_plain {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (a : Fin M) (b : Fin N) :
    Host.dotGeneral (F := Ideal) D prec l r (ix2 a b) = ∑ k : Fin K, l (ix2 a k) * r (ix2 k b) := by
  subst hD
  simp only [Host.dotGeneral]
  exact (Ideal.dotGeneral_apply _ prec _ l r (ix2 a b)).trans (sum_plain M K N l r a b)

end Idealize.ShloMosaic.PlainDot

end
-- ==== Proof.BlockValue.lean ====
/-
  What the kernel body leaves in its output block, entry by entry.

  The body holds a block of 512 activation rows, the two normalisation vectors and the two biases as one-row matrices,
  and the two weight matrices whole. Its stored value at (p, q) depends on row p of the block only: the row's mean
  and variance are lane sums divided by the row length and kept as [512, 1] columns, which are spread back over the
  lanes; the two matrix products run into zero accumulators, so at the extended reals each is the plain sum over the
  contracted coordinate; the changes of float format are the identity there. Hence entry (p, q) of the stored block
  is the specification's row function of row p, read at q.
-/
import proofs.«104977_j13675175870789_2_alg».proof.Proof.Gen.KernelIdeal.Skeleton
import proofs.«104977_j13675175870789_2_alg».proof.Proof.Spec
import proofs.«104977_j13675175870789_2_alg».proof.Proof.LibLane
import proofs.«104977_j13675175870789_2_alg».proof.Proof.LibIndexRead
import proofs.«104977_j13675175870789_2_alg».proof.Proof.LibPlainDot
import Idealize.ShloMosaic.Lib.ValueLayout
import Idealize.ShloMosaic.Lib.Pipeline.Value
import Idealize.ShloMosaic.PureOps.Ideal.Laws

noncomputable section

open scoped BigOperators

namespace Cert.KernelIdeal.Hand

open Idealize.ShloMosaic Idealize.ShloMosaic.ValueIdx Idealize.ShloMosaic.RowRead Idealize.ShloMosaic.PlainDot
open Cert.KernelIdeal Cert.KernelIdeal.Gen

/-! ## The body's stages, named -/

/-- A block's lane sums divided by the row length, kept as a column: the column of row means of `v`. -/
def meanCol (v : FVec Ideal S512x1024 .f32) : FVec Ideal S512x1 .f32 :=
  divf (shapeCast S512x1 (multiReduction .add [1] S512 v 0x00000000#32 reduces_S512x1024_S512 (.inl rfl) rfl) shapeCasts_S512_S512x1)
    (broadcast S512x1 (Scalar.ofBits .f32 0x44800000#32))

/-- The block minus its column of row means spread over the lanes. -/
def devBlk (v : FVec Ideal S512x1024 .f32) : FVec Ideal S512x1024 .f32 :=
  subf v (broadcastTo S512x1024 (meanCol v) broadcasts_S512x1_S512x1024)

/-- The column of reciprocal square roots of the row variances plus eps. -/
def invCol (v : FVec Ideal S512x1024 .f32) : FVec Ideal S512x1 .f32 :=
  rsqrt (addf (meanCol (mulf (devBlk v) (devBlk v))) (broadcast S512x1 (Scalar.ofBits .f32 0x3727C5AC#32)))

/-- The normalised block: deviations times the spread column, scaled and shifted by the one-row matrices. -/
def normBlk (v : FVec Ideal S512x1024 .f32) (sc bi : FVec Ideal S1x1024 .f32) : FVec Ideal S512x1024 .f32 :=
  addf (mulf (mulf (devBlk v) (broadcastTo S512x1024 (invCol v) broadcasts_S512x1_S512x1024))
    (broadcastTo S512x1024 sc broadcasts_S1x1024_S512x1024)) (broadcastTo S512x1024 bi broadcasts_S1x1024_S512x1024)

/-- The hidden block: the first product into a zero accumulator, plus the bias row, clipped at zero. -/
def hidBlk (v : FVec Ideal S512x1024 .f32) (sc bi : FVec Ideal S1x1024 .f32) (w1 : FVec Ideal S1024x4096 .bf16)
    (b1 : FVec Ideal S1x4096 .f32) : FVec Ideal S512x4096 .f32 :=
  maximumf (addf (matmul dot_S512x1024_S1024x4096_S512x4096_1_0_0_1_n_n none
      (truncf .bf16 (normBlk v sc bi) bitsLt_bf16_f32) w1 (constant S512x4096 .f32 0x00000000#32))
    (broadcastTo S512x4096 b1 broadcasts_S1x4096_S512x4096)) (broadcast S512x4096 (Scalar.ofBits .f32 0x00000000#32))

/-- The stored block: the second product into a zero accumulator, plus the bias row. -/
def outBlk (v : FVec Ideal S512x1024 .f32) (sc bi : FVec Ideal S1x1024 .f32) (w1 : FVec Ideal S1024x4096 .bf16)
    (b1 : FVec Ideal S1x4096 .f32) (w2 : FVec Ideal S4096x1024 .bf16) (b2 : FVec Ideal S1x1024 .f32) : FVec Ideal S512x1024 .f32 :=
  addf (matmul dot_S512x4096_S4096x1024_S512x1024_1_0_0_1_n_n none
      (truncf .bf16 (hidBlk v sc bi w1 b1) bitsLt_bf16_f32) w2 (constant S512x1024 .f32 0x00000000#32))
    (broadcastTo S512x1024 b2 broadcasts_S1x1024_S512x1024)

/-- The body's stored payload is these stages composed (its casts to the same shape are the identity). -/
theorem pay_eq (x0 : Vec Ideal S512x1024 .f32) (x1 x2 : Vec Ideal S1x1024 .f32) (x3 : Vec Ideal S1024x4096 .bf16)
    (x4 : Vec Ideal S1x4096 .f32) (x5 : Vec Ideal S4096x1024 .bf16) (x6 : Vec Ideal S1x1024 .f32) :
    k0_pay1 (k0_pay2 x0 x1 x2 x3 x4) (k0_pay3 x5) (constant S512x1024 .f32 0x00000000#32) x6
      = outBlk x0 x1 x2 x3 x4 x5 x6 := by
  unfold k0_pay1 k0_pay2 k0_pay3
  simp only [shapeCast_self]
  rfl

/-! ## Each stage read at an entry -/

/-- The column of row means at row p: the row's sum divided by the row length. -/
theorem meanCol_apply (v : FVec Ideal S512x1024 .f32) (p : Fin 512) (u : Fin 1) :
    meanCol v (ix2 p u) = Ideal.div (∑ k : Fin 1024, v (ix2 p k)) Mlp.width := by
  unfold meanCol
  rw [divf_apply, shapeCast_a_a1_apply, Cert.LibLane.laneSum_apply]
  rfl

/-- A deviation: the entry minus its row's mean. -/
theorem devBlk_apply (v : FVec Ideal S512x1024 .f32) (p : Fin 512) (q : Fin 1024) :
    devBlk v (ix2 p q) = Mlp.centred (fun k => v (ix2 p k)) q := by
  unfold devBlk
  rw [subf_apply, broadcastTo_a1_ab_apply, meanCol_apply]
  rfl

/-- The reciprocal square root of a row's variance plus eps. -/
theorem invCol_apply (v : FVec Ideal S512x1024 .f32) (p : Fin 512) (u : Fin 1) :
    invCol v (ix2 p u) = Ideal.rsqrt (Mlp.variance (fun k => v (ix2 p k)) + Mlp.eps) := by
  unfold invCol
  show Ideal.rsqrt (meanCol (mulf (devBlk v) (devBlk v)) (ix2 p u) + Ideal.ofBits .f32 0x3727C5AC#32) = _
  rw [meanCol_apply]
  simp only [mulf_apply, devBlk_apply]
  rfl

/-- A normalised entry. -/
theorem normBlk_apply (v : FVec Ideal S512x1024 .f32) (sc bi : FVec Ideal S1x1024 .f32) (p : Fin 512) (q : Fin 1024) :
    normBlk v sc bi (ix2 p q)
      = Mlp.normed (fun k => v (ix2 p k)) (fun k => sc (ix2 (0 : Fin 1) k)) (fun k => bi (ix2 (0 : Fin 1) k)) q := by
  unfold normBlk
  rw [addf_apply, mulf_apply, mulf_apply, devBlk_apply, broadcastTo_a1_ab_apply, invCol_apply,
    broadcastTo_1b_ab_apply, broadcastTo_1b_ab_apply]
  rfl

/-- A hidden entry. -/
theorem hidBlk_apply (v : FVec Ideal S512x1024 .f32) (sc bi : FVec Ideal S1x1024 .f32) (w1 : FVec Ideal S1024x4096 .bf16)
    (b1 : FVec Ideal S1x4096 .f32) (p : Fin 512) (f : Fin 4096) :
    hidBlk v sc bi w1 b1 (ix2 p f)
      = Mlp.hidden (fun k => v (ix2 p k)) (fun k => sc (ix2 (0 : Fin 1) k)) (fun k => bi (ix2 (0 : Fin 1) k))
          (fun k f => w1 (ix2 k f)) (fun f => b1 (ix2 (0 : Fin 1) f)) f := by
  unfold hidBlk
  rw [maximumf_apply, addf_apply, matmul_plain dot_S512x1024_S1024x4096_S512x4096_1_0_0_1_n_n rfl, broadcastTo_1b_ab_apply]
  simp only [truncf_apply, normBlk_apply]
  show max _ (Ideal.ofBits .f32 0x00000000#32) = _
  rw [Ideal.ofBits_zero_f32]
  rfl

/-- A stored entry: the specification's row function of row p of the block, at q. -/
theorem outBlk_apply (v : FVec Ideal S512x1024 .f32) (sc bi : FVec Ideal S1x1024 .f32) (w1 : FVec Ideal S1024x4096 .bf16)
    (b1 : FVec Ideal S1x4096 .f32) (w2 : FVec Ideal S4096x1024 .bf16) (b2 : FVec Ideal S1x1024 .f32) (p : Fin 512) (q : Fin 1024) :
    outBlk v sc bi w1 b1 w2 b2 (ix2 p q)
      = Mlp.outRow (fun k => v (ix2 p k)) (fun k => sc (ix2 (0 : Fin 1) k)) (fun k => bi (ix2 (0 : Fin 1) k))
          (fun k f => w1 (ix2 k f)) (fun f => b1 (ix2 (0 : Fin 1) f)) (fun f c => w2 (ix2 f c))
          (fun c => b2 (ix2 (0 : Fin 1) c)) q := by
  unfold outBlk
  rw [addf_apply, matmul_plain dot_S512x4096_S4096x1024_S512x1024_1_0_0_1_n_n rfl, broadcastTo_1b_ab_apply]
  simp only [truncf_apply, hidBlk_apply]
  rfl

end Cert.KernelIdeal.Hand

end
-- ==== Proof.BlockArray.lean ====
/-
  From the blocks to the whole result matrix.

  The grid has sixteen points. At point t the activations' window holds rows 512 t … 512 t + 511 of the [8192, 1024]
  matrix and the output window is written back to the same rows; the six parameter windows hold their whole arrays
  at every point. So what point t writes back is rows 512 t … 512 t + 511 of ONE matrix — the specification's row
  function applied to each row of the activations matrix — and since the sixteen row blocks tile the 8192 rows, the
  output array ends holding that matrix.
-/
import proofs.«104977_j13675175870789_2_alg».proof.Proof.Gen.KernelIdeal.Frame
import proofs.«104977_j13675175870789_2_alg».proof.Proof.BlockValue
import Idealize.ShloMosaic.Lib.Pipeline.Value
import Idealize.ShloMosaic.Lib.Tactic

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The result matrix, from the seven arrays the windows stage as the region finds them. -/
def regionResult (c : Dev nD) : S8192x1024.Idx → EReal :=
  Mlp.onMatrix (V m c main_v0 : S8192x1024.Idx → EReal) (V m c main_v1 : S1x1024.Idx → EReal) (V m c main_v2 : S1x1024.Idx → EReal)
    (V m c main_v5 : S1024x4096.Idx → EReal) (V m c main_v3 : S1x4096.Idx → EReal) (V m c main_v6 : S4096x1024.Idx → EReal)
    (V m c main_v4 : S1x1024.Idx → EReal)

/-- The printed index maps, decided over the sixteen points: the activations' and the output's block row is the
    point's number and their block column 0; every parameter window sits at block (0, 0). -/
theorem idx_facts : ∀ t : Fin cfg0.N,
    win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem point_lt (t : Fin cfg0.N) : t.val < 16 := by
  have h : t.val < cfg0.N := t.isLt
  have e : cfg0.N = 16 := N_0
  omega

/-! ## Each input block as a piece of its array -/

/-- The activations' block at point t is rows 512 t … 512 t + 511 of the matrix. -/
theorem act_block (c : Dev nD) (t : Fin cfg0.N) (p : Fin 512) (k : Fin 1024) :
    (iblk m c 0 t : Vec Ideal S512x1024 .f32) (ix2 p k)
      = (V m c main_v0 : S8192x1024.Idx → EReal) (ix2 ⟨512 * t.val + p.val, by have := point_lt t; omega⟩ k) := by
  obtain ⟨e0, e1, -⟩ := idx_facts t
  unfold iblk
  rw [View.read_apply]
  show V m c main_v0 _ = V m c main_v0 _
  congr 1
  funext a
  apply Fin.ext
  match a with
  | ⟨0, _⟩ => show win0_0.index t (0 : Fin 2) * 512 + 1 * p.val = 512 * t.val + p.val; rw [e0]; omega
  | ⟨1, _⟩ => show win0_0.index t (1 : Fin 2) * 1024 + 1 * k.val = k.val; rw [e1]; omega

/-- The scale row's block is the whole one-row matrix, at every point. -/
theorem scale_block (c : Dev nD) (t : Fin cfg0.N) :
    (iblk m c 1 t : Vec Ideal S1x1024 .f32) = (V m c main_v1 : S1x1024.Idx → EReal) := by
  obtain ⟨-, -, -, -, e0, e1, -⟩ := idx_facts t
  funext j
  unfold iblk
  rw [View.read_apply]
  show V m c main_v1 _ = V m c main_v1 j
  congr 1
  funext a
  apply Fin.ext
  match a with
  | ⟨0, _⟩ => show win0_1.index t (0 : Fin 2) * 1 + 1 * (j 0).val = (j 0).val; rw [e0]; omega
  | ⟨1, _⟩ => show win0_1.index t (1 : Fin 2) * 1024 + 1 * (j 1).val = (j 1).val; rw [e1]; omega

/-- The shift row's block is the whole one-row matrix. -/
theorem shift_block (c : Dev nD) (t : Fin cfg0.N) :
    (iblk m c 2 t : Vec Ideal S1x1024 .f32) = (V m c main_v2 : S1x1024.Idx → EReal) := by
  obtain ⟨-, -, -, -, -, -, e0, e1, -⟩ := idx_facts t
  funext j
  unfold iblk
  rw [View.read_apply]
  show V m c main_v2 _ = V m c main_v2 j
  congr 1
  funext a
  apply Fin.ext
  match a with
  | ⟨0, _⟩ => show win0_2.index t (0 : Fin 2) * 1 + 1 * (j 0).val = (j 0).val; rw [e0]; omega
  | ⟨1, _⟩ => show win0_2.index t (1 : Fin 2) * 1024 + 1 * (j 1).val = (j 1).val; rw [e1]; omega

/-- The first weight matrix's block is the whole matrix. -/
theorem w1_block (c : Dev nD) (t : Fin cfg0.N) :
    (iblk m c 3 t : Vec Ideal S1024x4096 .bf16) = (V m c main_v5 : S1024x4096.Idx → EReal) := by
  obtain ⟨-, -, -, -, -, -, -, -, e0, e1, -⟩ := idx_facts t
  funext j
  unfold iblk
  rw [View.read_apply]
  show V m c main_v5 _ = V m c main_v5 j
  congr 1
  funext a
  apply Fin.ext
  match a with
  | ⟨0, _⟩ => show win0_3.index t (0 : Fin 2) * 1024 + 1 * (j 0).val = (j 0).val; rw [e0]; omega
  | ⟨1, _⟩ => show win0_3.index t (1 : Fin 2) * 4096 + 1 * (j 1).val = (j 1).val; rw [e1]; omega

/-- The first bias row's block is the whole one-row matrix. -/
theorem b1_block (c : Dev nD) (t : Fin cfg0.N) :
    (iblk m c 4 t : Vec Ideal S1x4096 .f32) = (V m c main_v3 : S1x4096.Idx → EReal) := by
  obtain ⟨-, -, -, -, -, -, -, -, -, -, e0, e1, -⟩ := idx_facts t
  funext j
  unfold iblk
  rw [View.read_apply]
  show V m c main_v3 _ = V m c main_v3 j
  congr 1
  funext a
  apply Fin.ext
  match a with
  | ⟨0, _⟩ => show win0_4.index t (0 : Fin 2) * 1 + 1 * (j 0).val = (j 0).val; rw [e0]; omega
  | ⟨1, _⟩ => show win0_4.index t (1 : Fin 2) * 4096 + 1 * (j 1).val = (j 1).val; rw [e1]; omega

/-- The second weight matrix's block is the whole matrix. -/
theorem w2_block (c : Dev nD) (t : Fin cfg0.N) :
    (iblk m c 5 t : Vec Ideal S4096x1024 .bf16) = (V m c main_v6 : S4096x1024.Idx → EReal) := by
  obtain ⟨-, -, -, -, -, -, -, -, -, -, -, -, e0, e1, -⟩ := idx_facts t
  funext j
  unfold iblk
  rw [View.read_apply]
  show V m c main_v6 _ = V m c main_v6 j
  congr 1
  funext a
  apply Fin.ext
  match a with
  | ⟨0, _⟩ => show win0_5.index t (0 : Fin 2) * 4096 + 1 * (j 0).val = (j 0).val; rw [e0]; omega
  | ⟨1, _⟩ => show win0_5.index t (1 : Fin 2) * 1024 + 1 * (j 1).val = (j 1).val; rw [e1]; omega

/-- The second bias row's block is the whole one-row matrix. -/
theorem b2_block (c : Dev nD) (t : Fin cfg0.N) :
    (iblk m c 6 t : Vec Ideal S1x1024 .f32) = (V m c main_v4 : S1x1024.Idx → EReal) := by
  obtain ⟨-, -, -, -, -, -, -, -, -, -, -, -, -, -, e0, e1⟩ := idx_facts t
  funext j
  unfold iblk
  rw [View.read_apply]
  show V m c main_v4 _ = V m c main_v4 j
  congr 1
  funext a
  apply Fin.ext
  match a with
  | ⟨0, _⟩ => show win0_6.index t (0 : Fin 2) * 1 + 1 * (j 0).val = (j 0).val; rw [e0]; omega
  | ⟨1, _⟩ => show win0_6.index t (1 : Fin 2) * 1024 + 1 * (j 1).val = (j 1).val; rw [e1]; omega

/-! ## What a point writes back -/

/-- Entry (p, q) of what the body stores at point t is the result matrix at row 512 t + p, column q. -/
theorem stored_apply (c : Dev nD) (t : Fin cfg0.N) (p : Fin 512) (q : Fin 1024) :
    outBlk (iblk m c 0 t) (iblk m c 1 t) (iblk m c 2 t) (iblk m c 3 t) (iblk m c 4 t) (iblk m c 5 t) (iblk m c 6 t) (ix2 p q)
      = regionResult m c (ix2 ⟨512 * t.val + p.val, by have := point_lt t; omega⟩ q) := by
  refine (outBlk_apply (iblk m c 0 t) (iblk m c 1 t) (iblk m c 2 t) (iblk m c 3 t) (iblk m c 4 t) (iblk m c 5 t) (iblk m c 6 t) p q).trans ?_
  rw [scale_block m c t, shift_block m c t, w1_block m c t, b1_block m c t, w2_block m c t, b2_block m c t]
  simp only [act_block m c t]
  rfl

/-- What point t writes back is block t of the result matrix. -/
theorem flushed_eq (c : Dev nD) (t : Fin cfg0.N) :
    (dats m 0 c).flushed 7 t = ((cfg0.win 7).blk t).view.read (Elt Ideal) (regionResult m c) := by
  obtain ⟨-, -, e0, e1, -⟩ := idx_facts t
  show (cfg0.win 7).cut (grid0.coords t) ((dats m 0 c).after 7 t) = _
  rw [after0_7]
  unfold out0_7
  rw [View.canon_unit_zero hz]
  simp only [View.ld_unit_zero (S := S512x1024) hz, View.ld_unit_zero (S := S1x1024) hz, View.ld_unit_zero (S := S1024x4096) hz,
    View.ld_unit_zero (S := S1x4096) hz, View.ld_unit_zero (S := S4096x1024) hz]
  rw [pay_eq (iblk m c 0 t) (iblk m c 1 t) (iblk m c 2 t) (iblk m c 3 t) (iblk m c 4 t) (iblk m c 5 t) (iblk m c 6 t)]
  funext j
  show outBlk (iblk m c 0 t) (iblk m c 1 t) (iblk m c 2 t) (iblk m c 3 t) (iblk m c 4 t) (iblk m c 5 t) (iblk m c 6 t) (j : S512x1024.Idx)
    = regionResult m c (((cfg0.win 7).blk t).view.emb j)
  refine (congrArg _ (eq_ix2 (j : S512x1024.Idx))).trans ((stored_apply m c t (j 0) (j 1)).trans (congrArg (regionResult m c) ?_))
  funext a
  apply Fin.ext
  match a with
  | ⟨0, _⟩ => show 512 * t.val + (j 0).val = win0_7.index t (0 : Fin 2) * 512 + 1 * (j 0).val; rw [e0]; omega
  | ⟨1, _⟩ => show (j 1).val = win0_7.index t (1 : Fin 2) * 1024 + 1 * (j 1).val; rw [e1]; omega

/-! ## The sixteen row blocks tile the matrix -/

/-- An index of the matrix is in point t's block iff each coordinate is in the block's range on its axis. -/
theorem mem_blk (t : Fin cfg0.N) (i : S8192x1024.Idx) :
    i ∈ ((cfg0.win 7).blk t).view.set ↔ ∀ a : Fin 2, win0_7.index t a * S512x1024.size a ≤ (i a).val
      ∧ (i a).val < win0_7.index t a * S512x1024.size a + S512x1024.size a := by
  show i ∈ ((View.whole main_v7).slice (win0_7.rect t)).set ↔ _
  rw [View.set_slice_whole, Rect.mem_set_unit]
  exact Iff.rfl

/-- Row r of the matrix is in the block of point r / 512, and every point writes its block back. -/
theorem cover (i : S8192x1024.Idx) : ∃ t : Fin cfg0.N, (cfg0.win 7).flush t = true ∧ i ∈ ((cfg0.win 7).blk t).view.set := by
  have hi0 : (i 0).val < 8192 := (i 0).isLt
  have hi1 : (i 1).val < 1024 := (i 1).isLt
  have hN : cfg0.N = 16 := N_0
  have ht : (i 0).val / 512 < cfg0.N := by omega
  obtain ⟨-, -, e0, e1, -⟩ := idx_facts ⟨(i 0).val / 512, ht⟩
  refine ⟨⟨(i 0).val / 512, ht⟩, flush0_7 _, ?_⟩
  rw [mem_blk]
  intro a
  match a with
  | ⟨0, _⟩ =>
    show win0_7.index ⟨(i 0).val / 512, ht⟩ (0 : Fin 2) * 512 ≤ (i 0).val
      ∧ (i 0).val < win0_7.index ⟨(i 0).val / 512, ht⟩ (0 : Fin 2) * 512 + 512
    rw [e0]
    show (i 0).val / 512 * 512 ≤ (i 0).val ∧ (i 0).val < (i 0).val / 512 * 512 + 512
    omega
  | ⟨1, _⟩ =>
    show win0_7.index ⟨(i 0).val / 512, ht⟩ (1 : Fin 2) * 1024 ≤ (i 1).val
      ∧ (i 1).val < win0_7.index ⟨(i 0).val / 512, ht⟩ (1 : Fin 2) * 1024 + 1024
    rw [e1]
    omega

/-- The output array after the run is the result matrix. -/
theorem final (c : Dev nD) : (dats m 0 c).arrAt 7 cfg0.N = regionResult m c :=
  (dats m 0 c).arrAt_eq_of_cover 7 (regionResult m c) (fun t _ => flushed_eq m c t) cover

end Cert.KernelIdeal.Hand

end
-- ==== Proof.Relayout.lean ====
/-
  The two layouts of the 8192 rows describe one result.

  The kernel's host code views the [4, 2048, 1024] activations as an [8192, 1024] matrix, each parameter vector as a
  one-row matrix, and views the [8192, 1024] result back as [4, 2048, 1024]; a view keeps row-major positions, so
  row 2048 b + s of the matrix is row (b, s) of the array and entry c of a vector is entry (0, c) of its one-row matrix.
  The specification acts row by row, so the result matrix of the re-laid arguments, re-laid back, is the
  specification's array of the arguments as received.
-/
import proofs.«104977_j13675175870789_2_alg».proof.Proof.Spec
import Idealize.ShloMosaic.Lib.Pipeline.Value
import Idealize.ShloMosaic.Lib.ValueLayout

noncomputable section

open scoped BigOperators

namespace Cert.Mlp

open Idealize.ShloMosaic Idealize.ShloMosaic.ValueIdx

/-- Row (b, s) of the array is row 2048 b + s of its matrix view. -/
theorem rows_view (act : (⟨3, ![4, 2048, 1024]⟩ : Shape).Idx → EReal)
    (h : (⟨3, ![4, 2048, 1024]⟩ : Shape).ShapeCasts ⟨2, ![8192, 1024]⟩) (b : Fin 4) (s : Fin 2048) (k : Fin 1024)
    (r : Fin 8192) (hr : r.val = 2048 * b.val + s.val) :
    shapeCast ⟨2, ![8192, 1024]⟩ act h (ix2 r k) = act (ix3 b s k) :=
  shapeCast_apply act h _ _ (by
    rw [Shape.rowMajor_val_three, Shape.rowMajor_val_two]
    show (b.val * 2048 + s.val) * 1024 + k.val = r.val * 1024 + k.val
    rw [hr]; ring)

/-- The specification's matrix of the re-laid arguments, viewed back as an array, is its array of the arguments. -/
theorem onMatrix_view (act : (⟨3, ![4, 2048, 1024]⟩ : Shape).Idx → EReal) (sc bi : (⟨1, ![1024]⟩ : Shape).Idx → EReal)
    (w1 : (⟨2, ![1024, 4096]⟩ : Shape).Idx → EReal) (b1 : (⟨1, ![4096]⟩ : Shape).Idx → EReal)
    (w2 : (⟨2, ![4096, 1024]⟩ : Shape).Idx → EReal) (b2 : (⟨1, ![1024]⟩ : Shape).Idx → EReal)
    (h0 : (⟨3, ![4, 2048, 1024]⟩ : Shape).ShapeCasts ⟨2, ![8192, 1024]⟩)
    (h1 h2 h4 : (⟨1, ![1024]⟩ : Shape).ShapeCasts ⟨2, ![1, 1024]⟩) (h3 : (⟨1, ![4096]⟩ : Shape).ShapeCasts ⟨2, ![1, 4096]⟩)
    (hb : (⟨2, ![8192, 1024]⟩ : Shape).ShapeCasts ⟨3, ![4, 2048, 1024]⟩) :
    shapeCast ⟨3, ![4, 2048, 1024]⟩
        (onMatrix (shapeCast ⟨2, ![8192, 1024]⟩ act h0) (shapeCast ⟨2, ![1, 1024]⟩ sc h1) (shapeCast ⟨2, ![1, 1024]⟩ bi h2) w1
          (shapeCast ⟨2, ![1, 4096]⟩ b1 h3) w2 (shapeCast ⟨2, ![1, 1024]⟩ b2 h4)) hb
      = onArray act sc bi w1 b1 w2 b2 := by
  funext i
  obtain ⟨b, s, q, rfl⟩ : ∃ (b : Fin 4) (s : Fin 2048) (q : Fin 1024), i = ix3 b s q := ⟨i 0, i 1, i 2, eq_ix3 i⟩
  have hr : 2048 * b.val + s.val < 8192 := by have := b.isLt; have := s.isLt; omega
  refine (shapeCast_apply _ hb (ix3 b s q) (ix2 ⟨2048 * b.val + s.val, hr⟩ q) (by
    rw [Shape.rowMajor_val_three, Shape.rowMajor_val_two]
    show (2048 * b.val + s.val) * 1024 + q.val = (b.val * 2048 + s.val) * 1024 + q.val
    ring)).trans ?_
  show outRow (fun k => shapeCast ⟨2, ![8192, 1024]⟩ act h0 (ix2 ⟨2048 * b.val + s.val, hr⟩ k))
      (fun k => shapeCast ⟨2, ![1, 1024]⟩ sc h1 (ix2 (0 : Fin 1) k)) (fun k => shapeCast ⟨2, ![1, 1024]⟩ bi h2 (ix2 (0 : Fin 1) k))
      (fun k f => w1 (ix2 k f)) (fun f => shapeCast ⟨2, ![1, 4096]⟩ b1 h3 (ix2 (0 : Fin 1) f)) (fun f c => w2 (ix2 f c))
      (fun c => shapeCast ⟨2, ![1, 1024]⟩ b2 h4 (ix2 (0 : Fin 1) c)) q
    = outRow (fun k => act (ix3 b s k)) (fun k => sc (ix1 k)) (fun k => bi (ix1 k)) (fun k f => w1 (ix2 k f))
      (fun f => b1 (ix1 f)) (fun f c => w2 (ix2 f c)) (fun c => b2 (ix1 c)) q
  simp only [rows_view act h0 b s _ ⟨2048 * b.val + s.val, hr⟩ rfl, shapeCast_a_1a_apply]

end Cert.Mlp

end
-- ==== Proof.KernelRun.lean ====
/-
  The kernel program's run, with its result named.

  Before the region the host code only re-views the arguments (the activations as a matrix, the four vectors as
  one-row matrices) and changes the two weight matrices' float format, which is the identity on the extended reals;
  after the region it views the output matrix back as a [4, 2048, 1024] array. So the program's result is the
  specification's array of the arguments as received, and the arguments end unchanged.
-/
import proofs.«104977_j13675175870789_2_alg».proof.Proof.BlockArray
import proofs.«104977_j13675175870789_2_alg».proof.Proof.Relayout
import Idealize.ShloMosaic.Lib.StableHlo.Run

noncomputable section

open scoped BigOperators

namespace Cert.KernelIdeal.Hand

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

/-! ## The staged arrays as the region finds them -/

theorem found_act (c : Dev nD) : (V m c main_v0 : S8192x1024.Idx → EReal)
    = shapeCast S8192x1024 (m ((c : Thread nD τ).loc main_arg0)) shapeCasts_S4x2048x1024_S8192x1024 := by
  show StableHlo.after hostOps0 (fun b => m (c, b)) (Proc.devRef .tc main_v0) = _
  after_results
  rfl

theorem found_scale (c : Dev nD) : (V m c main_v1 : S1x1024.Idx → EReal)
    = shapeCast S1x1024 (m ((c : Thread nD τ).loc main_arg2)) shapeCasts_S1024_S1x1024 := by
  show StableHlo.after hostOps0 (fun b => m (c, b)) (Proc.devRef .tc main_v1) = _
  after_results
  rfl

theorem found_shift (c : Dev nD) : (V m c main_v2 : S1x1024.Idx → EReal)
    = shapeCast S1x1024 (m ((c : Thread nD τ).loc main_arg3)) shapeCasts_S1024_S1x1024 := by
  show StableHlo.after hostOps0 (fun b => m (c, b)) (Proc.devRef .tc main_v2) = _
  after_results
  rfl

theorem found_b1 (c : Dev nD) : (V m c main_v3 : S1x4096.Idx → EReal)
    = shapeCast S1x4096 (m ((c : Thread nD τ).loc main_arg5)) shapeCasts_S4096_S1x4096 := by
  show StableHlo.after hostOps0 (fun b => m (c, b)) (Proc.devRef .tc main_v3) = _
  after_results
  rfl

theorem found_b2 (c : Dev nD) : (V m c main_v4 : S1x1024.Idx → EReal)
    = shapeCast S1x1024 (m ((c : Thread nD τ).loc main_arg7)) shapeCasts_S1024_S1x1024 := by
  show StableHlo.after hostOps0 (fun b => m (c, b)) (Proc.devRef .tc main_v4) = _
  after_results
  rfl

theorem found_w1 (c : Dev nD) : (V m c main_v5 : S1024x4096.Idx → EReal)
    = (m ((c : Thread nD τ).loc main_arg4) : S1024x4096.Idx → EReal) := by
  show StableHlo.after hostOps0 (fun b => m (c, b)) (Proc.devRef .tc main_v5) = _
  after_results
  rfl

theorem found_w2 (c : Dev nD) : (V m c main_v6 : S4096x1024.Idx → EReal)
    = (m ((c : Thread nD τ).loc main_arg6) : S4096x1024.Idx → EReal) := by
  show StableHlo.after hostOps0 (fun b => m (c, b)) (Proc.devRef .tc main_v6) = _
  after_results
  rfl

/-- The specification's array of the arguments as the program receives them. -/
abbrev result (c : Dev nD) : S4x2048x1024.Idx → EReal :=
  Mlp.onArray (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7))

/-- The output matrix, viewed back as an array, is that. -/
theorem viewed_result (c : Dev nD) :
    shapeCast S4x2048x1024 (regionResult m c) shapeCasts_S8192x1024_S4x2048x1024 = result m c := by
  unfold regionResult
  rw [found_act, found_scale, found_shift, found_b1, found_b2, found_w1, found_w2]
  exact Mlp.onMatrix_view _ _ _ _ _ _ _ _ _ _ _ _ _

/-- What the lines after the region leave in the result buffer. -/
theorem tail_result (c : Dev nD) :
    Pipeline.afterTail₀ cfgs (dats m) 0 (V0 m) [hostOps1] c main_v8 = result m c := by
  unfold Pipeline.afterTail₀
  show StableHlo.after hostOps1 _ (Proc.devRef .tc main_v8) = _
  after_results
  have hw : Pipeline.withArrays (cfgs 0).spec c (V0 m c) (fun w => (dats m 0 c).arrAt w (cfgs 0).N) (Proc.devRef .tc main_v7)
      = regionResult m c :=
    (Pipeline.withArrays_arr spec0 launch0.win.arr_inj c _ _ 7).trans (final m c)
  rw [← viewed_result m c, ← hw]
  rfl

/-! ## The run -/

/-- Every weakly fair execution of the kernel program terminates with the result buffer at the specification's array
    of the arguments and the arguments unchanged. -/
theorem run : θ_run defs (onTc (τ := τ) (main (F := Ideal))) ⟨m, fun _ => 0, ρ⟩ (fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v8 (Pipeline.mem_restRefs_of main_v8 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Hand

end
-- ==== Proof.RefValue.lean ====
/-
  The reference program's result is the specification's array.

  The reference normalises the [4, 2048, 1024] activations along the last axis, multiplies by the two weight matrices
  contracting that axis, and clips the hidden layer at zero in between. Read at an index (b, s, q), each of its
  operations reads its operands at indices that keep (b, s): the reductions and the two products run over the last
  coordinate of row (b, s), the keep-dims columns are read at (b, s, 0), and the parameter vectors are spread along the
  last axis. So stage by stage — mean, deviation, variance, reciprocal root, normalised entry, hidden entry, output
  entry — the reference's value at (b, s, ·) is the specification's row function of row (b, s). Both sums start from
  the zero word, which is the extended real 0.
-/
import proofs.«104977_j13675175870789_2_alg».proof.Proof.Gen.ReferenceIdeal.Read
import proofs.«104977_j13675175870789_2_alg».proof.Proof.Spec

noncomputable section

open scoped BigOperators

namespace Cert.ReferenceIdeal.RefValue

open Idealize.ShloMosaic Idealize.ShloMosaic.ValueIdx
open Cert.ReferenceIdeal Cert.ReferenceIdeal.Read

variable (x0 : (⟨S4x2048x1024, .f32⟩ : BufTy).Contents (Elt Ideal)) (x2 x3 : (⟨S1024, .f32⟩ : BufTy).Contents (Elt Ideal))
  (x4 : (⟨S1024x4096, .f32⟩ : BufTy).Contents (Elt Ideal)) (x5 : (⟨S4096, .f32⟩ : BufTy).Contents (Elt Ideal))
  (x6 : (⟨S4096x1024, .f32⟩ : BufTy).Contents (Elt Ideal)) (x7 : (⟨S1024, .f32⟩ : BufTy).Contents (Elt Ideal))

/-- The mean column at (b, s): the mean of row (b, s). -/
theorem mean_at (b : Fin 4) (s : Fin 2048) (u : Fin 1) :
    val_main_v3 (F := Ideal) x0 (ix3 b s u) = Mlp.mean (fun k => x0 (ix3 b s k)) := by
  rw [val_main_v3_apply, val_main_v1_apply, val_main_v0_apply, val_main_v2_apply, val_main_cst_0_apply, val_main_cst_apply]
  have e : ∀ k : Fin 1024, idx_main_v0 (idx_main_v1 (ix3 b s u)) k = ix3 b s k := fun k =>
    funext fun a => Fin.ext (by match a with | ⟨0, _⟩ => rfl | ⟨1, _⟩ => rfl | ⟨2, _⟩ => rfl)
  simp only [e]
  show Ideal.div (Ideal.ofBits .f32 0x00000000#32 + ∑ k : Fin 1024, x0 (ix3 b s k)) (Ideal.ofBits .f32 0x44800000#32) = _
  rw [Ideal.ofBits_zero_f32, zero_add]
  rfl

/-- A deviation, as the variance reads it. -/
theorem dev_at (b : Fin 4) (s : Fin 2048) (k : Fin 1024) :
    val_main_v5 (F := Ideal) x0 (ix3 b s k) = Mlp.centred (fun k => x0 (ix3 b s k)) k := by
  rw [val_main_v5_apply, val_main_v4_apply]
  have e : idx_main_v4 (ix3 b s k) = ix3 b s (0 : Fin 1) :=
    funext fun a => Fin.ext (by match a with | ⟨0, _⟩ => rfl | ⟨1, _⟩ => rfl | ⟨2, _⟩ => rfl)
  rw [e, mean_at]
  rfl

/-- The same deviation, computed again for the normalised entry. -/
theorem dev_again_at (b : Fin 4) (s : Fin 2048) (k : Fin 1024) :
    val_main_v12 (F := Ideal) x0 (ix3 b s k) = Mlp.centred (fun k => x0 (ix3 b s k)) k := by
  rw [val_main_v12_apply, val_main_v11_apply]
  have e : idx_main_v11 (ix3 b s k) = ix3 b s (0 : Fin 1) :=
    funext fun a => Fin.ext (by match a with | ⟨0, _⟩ => rfl | ⟨1, _⟩ => rfl | ⟨2, _⟩ => rfl)
  rw [e, mean_at]
  rfl

/-- The variance column at (b, s). -/
theorem var_at (b : Fin 4) (s : Fin 2048) (u : Fin 1) :
    val_main_v10 (F := Ideal) x0 (ix3 b s u) = Mlp.variance (fun k => x0 (ix3 b s k)) := by
  rw [val_main_v10_apply, val_main_v8_apply, val_main_v7_apply, val_main_v9_apply, val_main_cst_2_apply, val_main_cst_1_apply]
  have e : ∀ k : Fin 1024, idx_main_v7 (idx_main_v8 (ix3 b s u)) k = ix3 b s k := fun k =>
    funext fun a => Fin.ext (by match a with | ⟨0, _⟩ => rfl | ⟨1, _⟩ => rfl | ⟨2, _⟩ => rfl)
  simp only [e, val_main_v6_apply, dev_at]
  show Ideal.div (Ideal.ofBits .f32 0x00000000#32
      + ∑ k : Fin 1024, Mlp.centred (fun k => x0 (ix3 b s k)) k * Mlp.centred (fun k => x0 (ix3 b s k)) k)
    (Ideal.ofBits .f32 0x44800000#32) = _
  rw [Ideal.ofBits_zero_f32, zero_add]
  rfl

/-- The reciprocal square root column at (b, s). -/
theorem inv_at (b : Fin 4) (s : Fin 2048) (u : Fin 1) :
    val_main_v15 (F := Ideal) x0 (ix3 b s u) = Ideal.rsqrt (Mlp.variance (fun k => x0 (ix3 b s k)) + Mlp.eps) := by
  rw [val_main_v15_apply, val_main_v14_apply, var_at, val_main_v13_apply, val_main_cst_3_apply]
  rfl

/-- A normalised entry. -/
theorem normed_at (b : Fin 4) (s : Fin 2048) (k : Fin 1024) :
    val_main_v23 (F := Ideal) x0 x2 x3 (ix3 b s k)
      = Mlp.normed (fun k => x0 (ix3 b s k)) (fun k => x2 (ix1 k)) (fun k => x3 (ix1 k)) k := by
  rw [val_main_v23_apply, val_main_v20_apply, val_main_v17_apply, dev_again_at, val_main_v16_apply, val_main_v19_apply,
    val_main_v18_apply, val_main_v22_apply, val_main_v21_apply]
  have e16 : idx_main_v16 (ix3 b s k) = ix3 b s (0 : Fin 1) :=
    funext fun a => Fin.ext (by match a with | ⟨0, _⟩ => rfl | ⟨1, _⟩ => rfl | ⟨2, _⟩ => rfl)
  have e18 : idx_main_v18 (idx_main_v19 (ix3 b s k)) = ix1 k :=
    funext fun a => Fin.ext (by match a with | ⟨0, _⟩ => rfl)
  have e21 : idx_main_v21 (idx_main_v22 (ix3 b s k)) = ix1 k :=
    funext fun a => Fin.ext (by match a with | ⟨0, _⟩ => rfl)
  rw [e16, e18, e21, inv_at]
  rfl

/-- A hidden entry. -/
theorem hidden_at (b : Fin 4) (s : Fin 2048) (f : Fin 4096) :
    val_main_v28 (F := Ideal) x0 x2 x3 x4 x5 (ix3 b s f)
      = Mlp.hidden (fun k => x0 (ix3 b s k)) (fun k => x2 (ix1 k)) (fun k => x3 (ix1 k)) (fun k f => x4 (ix2 k f))
          (fun f => x5 (ix1 f)) f := by
  rw [val_main_v28_apply, val_main_v27_apply, val_main_v24_apply, val_main_v26_apply, val_main_v25_apply,
    val_main_call0_v0_apply, val_main_call0_cst_apply]
  have el : ∀ k : Fin 1024, lidx_main_v24 (ix3 b s f) k = ix3 b s k := fun k =>
    funext fun a => Fin.ext (by match a with | ⟨0, _⟩ => rfl | ⟨1, _⟩ => rfl | ⟨2, _⟩ => rfl)
  have er : ∀ k : Fin 1024, ridx_main_v24 (ix3 b s f) k = ix2 k f := fun k =>
    funext fun a => Fin.ext (by match a with | ⟨0, _⟩ => rfl | ⟨1, _⟩ => rfl)
  have e25 : idx_main_v25 (idx_main_v26 (ix3 b s f)) = ix1 f :=
    funext fun a => Fin.ext (by match a with | ⟨0, _⟩ => rfl)
  simp only [el, er, e25, normed_at]
  show max ((∑ k : Fin 1024, Mlp.normed (fun k => x0 (ix3 b s k)) (fun k => x2 (ix1 k)) (fun k => x3 (ix1 k)) k * x4 (ix2 k f))
      + x5 (ix1 f)) (Ideal.ofBits .f32 0x00000000#32) = _
  rw [Ideal.ofBits_zero_f32]
  rfl

/-- An output entry. -/
theorem out_at (b : Fin 4) (s : Fin 2048) (q : Fin 1024) :
    val_main_v32 (F := Ideal) x0 x2 x3 x4 x5 x6 x7 (ix3 b s q)
      = Mlp.outRow (fun k => x0 (ix3 b s k)) (fun k => x2 (ix1 k)) (fun k => x3 (ix1 k)) (fun k f => x4 (ix2 k f))
          (fun f => x5 (ix1 f)) (fun f c => x6 (ix2 f c)) (fun c => x7 (ix1 c)) q := by
  rw [val_main_v32_apply, val_main_v29_apply, val_main_v31_apply, val_main_v30_apply]
  have el : ∀ k : Fin 4096, lidx_main_v29 (ix3 b s q) k = ix3 b s k := fun k =>
    funext fun a => Fin.ext (by match a with | ⟨0, _⟩ => rfl | ⟨1, _⟩ => rfl | ⟨2, _⟩ => rfl)
  have er : ∀ k : Fin 4096, ridx_main_v29 (ix3 b s q) k = ix2 k q := fun k =>
    funext fun a => Fin.ext (by match a with | ⟨0, _⟩ => rfl | ⟨1, _⟩ => rfl)
  have e30 : idx_main_v30 (idx_main_v31 (ix3 b s q)) = ix1 q :=
    funext fun a => Fin.ext (by match a with | ⟨0, _⟩ => rfl)
  simp only [el, er, e30, hidden_at]
  rfl

/-- The reference's last stage is the specification's array of its arguments. -/
theorem result_eq : val_main_v32 (F := Ideal) x0 x2 x3 x4 x5 x6 x7 = Mlp.onArray x0 x2 x3 x4 x5 x6 x7 := by
  funext i
  obtain ⟨b, s, q, rfl⟩ : ∃ (b : Fin 4) (s : Fin 2048) (q : Fin 1024), i = ix3 b s q := ⟨i 0, i 1, i 2, eq_ix3 i⟩
  rw [out_at]
  rfl

end Cert.ReferenceIdeal.RefValue

end
-- ==== Proof.lean ====
/-
  A fused layer-normalisation and two-layer dense block, tiled over rows, against its array-level reference.

  The kernel views the [4, 2048, 1024] activations as 8192 rows of 1024, and in sixteen row blocks of 512 normalises
  each row (mean and variance as sums over the row divided by 1024, the deviation times the reciprocal square root of
  the variance plus a constant, scaled and shifted per column), multiplies by a 1024 × 4096 matrix, adds a bias, clips
  at zero, multiplies by a 4096 × 1024 matrix and adds a bias; the result is viewed back as [4, 2048, 1024]. The
  reference does the same on the array itself, reducing and contracting along the last axis.

  On the extended reals the two agree entry by entry with no appeal to finiteness: every output row is one function of
  its own input row and of the parameters (Proof/Spec.lean), the tiling never splits a sum — each block holds whole
  rows and both weight matrices whole —, a matrix product into a zero accumulator and a contraction are the same sum,
  the two programs spell the row length and the added constant by the same words, and a change of float format is the
  identity. What remains is layout: row 2048 b + s of the matrix is row (b, s) of the array (Proof/Relayout.lean).

  The kernel side: the body's stored block entry by entry (Proof/BlockValue.lean), the sixteen row blocks assembled
  into the output matrix (Proof/BlockArray.lean), the host code around the region and the run (Proof/KernelRun.lean).
  The reference side: its operations read at an index, stage by stage (Proof/RefValue.lean).

  The three frames are the programs' runs with the result dropped; the idealised kernel is the kernel's own text read
  at the extended reals, so nothing is owed for it.
-/
import proofs.«104977_j13675175870789_2_alg».proof.Defs
import proofs.«104977_j13675175870789_2_alg».proof.Proof.Gen.Kernel
import proofs.«104977_j13675175870789_2_alg».proof.Proof.Gen.Kernel.Skeleton
import proofs.«104977_j13675175870789_2_alg».proof.Proof.Gen.Kernel.Launch
import proofs.«104977_j13675175870789_2_alg».proof.Proof.Gen.Kernel.Points
import proofs.«104977_j13675175870789_2_alg».proof.Proof.Gen.Kernel.Frame
import proofs.«104977_j13675175870789_2_alg».proof.Proof.Gen.KernelIdeal
import proofs.«104977_j13675175870789_2_alg».proof.Proof.Gen.KernelIdeal.Skeleton
import proofs.«104977_j13675175870789_2_alg».proof.Proof.Gen.KernelIdeal.Launch
import proofs.«104977_j13675175870789_2_alg».proof.Proof.Gen.KernelIdeal.Points
import proofs.«104977_j13675175870789_2_alg».proof.Proof.Gen.KernelIdeal.Frame
import proofs.«104977_j13675175870789_2_alg».proof.Proof.Gen.ReferenceIdeal
import proofs.«104977_j13675175870789_2_alg».proof.Proof.Gen.Pre_finite_inputs
import proofs.«104977_j13675175870789_2_alg».proof.Proof.Gen.ReferenceIdeal.Run
import proofs.«104977_j13675175870789_2_alg».proof.Proof.Gen.ReferenceIdeal.Read
import proofs.«104977_j13675175870789_2_alg».proof.Proof.KernelRun
import proofs.«104977_j13675175870789_2_alg».proof.Proof.RefValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read at the extended reals. -/
theorem frame_ideal : Cert.frame_KernelIdeal := fun m ρ _ => Cert.KernelIdeal.Gen.frame m ρ

/-- The reference's run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealised kernel is the kernel's own text: no rewrite to account for. -/
theorem preserves : Cert.preserves_Kernel_KernelIdeal := trivial

/-- From memories that agree on the arguments both programs end with the specification's array of those arguments. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.ReferenceIdeal.RefValue.result_eq]
  obtain ⟨a0, -, a2, a3, a4, a5, a6, a7⟩ := hagree c
  rw [a0, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
